-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v46)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v46) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v46) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x4096x4096 : Shape := ⟨3, ![8, 4096, 4096]⟩
abbrev S8x64x64x2 : Shape := ⟨4, ![8, 64, 64, 2]⟩
abbrev S_ : Shape := ⟨0, ![]⟩

class Facts : Prop where
  bcast_S_S8x4096x4096 : S_.BroadcastsInDim S8x4096x4096 (![] : Fin 0 → Fin S8x4096x4096.rank)
  reducesTo_S8x4096x4096_S_d0_1_2 : S8x4096x4096.ReducesTo [0, 1, 2] S_
  h_S_ : 0 < S_.numel
  bcast_S_S8x64x64x2 : S_.BroadcastsInDim S8x64x64x2 (![] : Fin 0 → Fin S8x64x64x2.rank)
  reducesTo_S8x64x64x2_S_d0_1_2_3 : S8x64x64x2.ReducesTo [0, 1, 2, 3] S_

variable [Facts]

def fn {F : FTy → Type} [FloatOps F] (main_arg0 : FVec F S8x4096x4096 .f32) (main_arg1 : FVec F S8x64x64x2 .f32) : IVec S_ 1 :=
  let main_v0 : FVec F S8x4096x4096 .f32 := Host.absf main_arg0
  let main_cst : FVec F S_ .f32 := constant S_ .f32 0x7F800000#32
  let main_v1 : FVec F S8x4096x4096 .f32 := broadcastInDim S8x4096x4096 ![] bcast_S_S8x4096x4096 main_cst
  let main_v2 : IVec S8x4096x4096 1 := cmpf .olt main_v0 main_v1
  let main_c : IVec S_ 1 := constantI S_ 1 1#1
  let main_v3 : IVec S_ 1 := (fun x v => Host.reduce IntOp.andi x v reducesTo_S8x4096x4096_S_d0_1_2 h_S_) main_v2 main_c
  let main_v4 : FVec F S8x64x64x2 .f32 := Host.absf main_arg1
  let main_cst_0 : FVec F S_ .f32 := constant S_ .f32 0x7F800000#32
  let main_v5 : FVec F S8x64x64x2 .f32 := broadcastInDim S8x64x64x2 ![] bcast_S_S8x64x64x2 main_cst_0
  let main_v6 : IVec S8x64x64x2 1 := cmpf .olt main_v4 main_v5
  let main_c_1 : IVec S_ 1 := constantI S_ 1 1#1
  let main_v7 : IVec S_ 1 := (fun x v => Host.reduce IntOp.andi x v reducesTo_S8x64x64x2_S_d0_1_2_3 h_S_) main_v6 main_c_1
  let main_v8 : IVec S_ 1 := andi main_v3 main_v7
  main_v8
-- ==== Kernel.lean ====
abbrev S8x4096x4096 : Shape := ⟨3, ![8, 4096, 4096]⟩
abbrev S8x64x64x2 : Shape := ⟨4, ![8, 64, 64, 2]⟩
abbrev S8x2x64x64 : Shape := ⟨4, ![8, 2, 64, 64]⟩
abbrev S8x2x4096 : Shape := ⟨3, ![8, 2, 4096]⟩
abbrev S1x2x1024 : Shape := ⟨3, ![1, 2, 1024]⟩
abbrev S1x1024x4096 : Shape := ⟨3, ![1, 1024, 4096]⟩
abbrev S1x2x4096 : Shape := ⟨3, ![1, 2, 4096]⟩
abbrev S2x4096 : Shape := ⟨2, ![2, 4096]⟩
abbrev S1x2x512 : Shape := ⟨3, ![1, 2, 512]⟩
abbrev S2x512 : Shape := ⟨2, ![2, 512]⟩
abbrev S1x512x4096 : Shape := ⟨3, ![1, 512, 4096]⟩
abbrev S512x4096 : Shape := ⟨2, ![512, 4096]⟩
abbrev S15 : Shape := ⟨1, ![15]⟩
abbrev S_ : Shape := ⟨0, ![]⟩
abbrev S15x1 : Shape := ⟨2, ![15, 1]⟩
abbrev S8 : Shape := ⟨1, ![8]⟩
abbrev S1x8 : Shape := ⟨2, ![1, 8]⟩
abbrev S15x8 : Shape := ⟨2, ![15, 8]⟩
abbrev S15x8x1 : Shape := ⟨3, ![15, 8, 1]⟩
abbrev S8x2x15x8x64 : Shape := ⟨5, ![8, 2, 15, 8, 64]⟩
abbrev S8x2x15x8x15x8 : Shape := ⟨6, ![8, 2, 15, 8, 15, 8]⟩
abbrev S8x2x15x15x8x8 : Shape := ⟨6, ![8, 2, 15, 15, 8, 8]⟩
abbrev S8x2x225x64 : Shape := ⟨4, ![8, 2, 225, 64]⟩
abbrev S8x2x225 : Shape := ⟨3, ![8, 2, 225]⟩
abbrev S8x2x225x1 : Shape := ⟨4, ![8, 2, 225, 1]⟩

abbrev nBuf : Space → Nat
  | .hbm => 59
  | .vmem => 7
  | .smem => 0
  | _ => 0

abbrev bufTy : (tb : Table) → Fin (tcTables nBuf tb) → BufTy
  | .hbm, ⟨0, _⟩ => ⟨S8x4096x4096, .f32⟩
  | .hbm, ⟨1, _⟩ => ⟨S8x64x64x2, .f32⟩
  | .hbm, ⟨2, _⟩ => ⟨S8x2x64x64, .f32⟩
  | .hbm, ⟨3, _⟩ => ⟨S8x2x4096, .f32⟩
  | .hbm, ⟨4, _⟩ => ⟨S8x2x4096, .f32⟩
  | .hbm, ⟨5, _⟩ => ⟨S8x2x64x64, .f32⟩
  | .hbm, ⟨6, _⟩ => ⟨S15, .i32⟩
  | .hbm, ⟨7, _⟩ => ⟨S_, .i32⟩
  | .hbm, ⟨8, _⟩ => ⟨S15, .i32⟩
  | .hbm, ⟨9, _⟩ => ⟨S15, .i32⟩
  | .hbm, ⟨10, _⟩ => ⟨S15, .i32⟩
  | .hbm, ⟨11, _⟩ => ⟨S_, .i32⟩
  | .hbm, ⟨12, _⟩ => ⟨S15, .i32⟩
  | .hbm, ⟨13, _⟩ => ⟨S15, .i32⟩
  | .hbm, ⟨14, _⟩ => ⟨S15x1, .i32⟩
  | .hbm, ⟨15, _⟩ => ⟨S8, .i32⟩
  | .hbm, ⟨16, _⟩ => ⟨S1x8, .i32⟩
  | .hbm, ⟨17, _⟩ => ⟨S15x8, .i32⟩
  | .hbm, ⟨18, _⟩ => ⟨S15x8, .i32⟩
  | .hbm, ⟨19, _⟩ => ⟨S15x8, .i32⟩
  | .hbm, ⟨20, _⟩ => ⟨S_, .i32⟩
  | .hbm, ⟨21, _⟩ => ⟨S15x8, .i32⟩
  | .hbm, ⟨22, _⟩ => ⟨S15x8, .i1⟩
  | .hbm, ⟨23, _⟩ => ⟨S_, .i32⟩
  | .hbm, ⟨24, _⟩ => ⟨S15x8, .i32⟩
  | .hbm, ⟨25, _⟩ => ⟨S15x8, .i32⟩
  | .hbm, ⟨26, _⟩ => ⟨S15x8, .i32⟩
  | .hbm, ⟨27, _⟩ => ⟨S15x8x1, .i32⟩
  | .hbm, ⟨28, _⟩ => ⟨S8x2x15x8x64, .f32⟩
  | .hbm, ⟨29, _⟩ => ⟨S15x1, .i32⟩
  | .hbm, ⟨30, _⟩ => ⟨S8, .i32⟩
  | .hbm, ⟨31, _⟩ => ⟨S1x8, .i32⟩
  | .hbm, ⟨32, _⟩ => ⟨S15x8, .i32⟩
  | .hbm, ⟨33, _⟩ => ⟨S15x8, .i32⟩
  | .hbm, ⟨34, _⟩ => ⟨S15x8, .i32⟩
  | .hbm, ⟨35, _⟩ => ⟨S_, .i32⟩
  | .hbm, ⟨36, _⟩ => ⟨S15x8, .i32⟩
  | .hbm, ⟨37, _⟩ => ⟨S15x8, .i1⟩
  | .hbm, ⟨38, _⟩ => ⟨S_, .i32⟩
  | .hbm, ⟨39, _⟩ => ⟨S15x8, .i32⟩
  | .hbm, ⟨40, _⟩ => ⟨S15x8, .i32⟩
  | .hbm, ⟨41, _⟩ => ⟨S15x8, .i32⟩
  | .hbm, ⟨42, _⟩ => ⟨S15x8x1, .i32⟩
  | .hbm, ⟨43, _⟩ => ⟨S8x2x15x8x15x8, .f32⟩
  | .hbm, ⟨44, _⟩ => ⟨S8x2x15x15x8x8, .f32⟩
  | .hbm, ⟨45, _⟩ => ⟨S8x2x225x64, .f32⟩
  | .hbm, ⟨46, _⟩ => ⟨S_, .f32⟩
  | .hbm, ⟨47, _⟩ => ⟨S8x2x225, .f32⟩
  | .hbm, ⟨48, _⟩ => ⟨S8x2x225x1, .f32⟩
  | .hbm, ⟨49, _⟩ => ⟨S_, .f32⟩
  | .hbm, ⟨50, _⟩ => ⟨S8x2x225x1, .f32⟩
  | .hbm, ⟨51, _⟩ => ⟨S8x2x225x1, .f32⟩
  | .hbm, ⟨52, _⟩ => ⟨S8x2x225x64, .f32⟩
  | .hbm, ⟨53, _⟩ => ⟨S8x2x225x64, .f32⟩
  | .hbm, ⟨54, _⟩ => ⟨S8x2x225x64, .f32⟩
  | .hbm, ⟨55, _⟩ => ⟨S_, .f32⟩
  | .hbm, ⟨56, _⟩ => ⟨S_, .f32⟩
  | .hbm, ⟨57, _⟩ => ⟨S_, .f32⟩
  | .hbm, ⟨58, _⟩ => ⟨S_, .f32⟩
  | .local _ .vmem, ⟨0, _⟩ => ⟨S1x2x1024, .f32⟩
  | .local _ .vmem, ⟨1, _⟩ => ⟨S1x2x1024, .f32⟩
  | .local _ .vmem, ⟨2, _⟩ => ⟨S1x1024x4096, .f32⟩
  | .local _ .vmem, ⟨3, _⟩ => ⟨S1x1024x4096, .f32⟩
  | .local _ .vmem, ⟨4, _⟩ => ⟨S1x2x4096, .f32⟩
  | .local _ .vmem, ⟨5, _⟩ => ⟨S1x2x4096, .f32⟩
  | .local _ .vmem, ⟨6, _⟩ => ⟨S2x4096, .f32⟩
  | _, _ => ⟨S8x4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_c : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_c_0 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_c_1 : Ref sig .tc := ⟨.hbm, 20, rfl⟩
abbrev main_v16 : Ref sig .tc := ⟨.hbm, 21, rfl⟩
abbrev main_v17 : Ref sig .tc := ⟨.hbm, 22, rfl⟩
abbrev main_c_2 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_c_3 : Ref sig .tc := ⟨.hbm, 35, rfl⟩
abbrev main_v29 : Ref sig .tc := ⟨.hbm, 36, rfl⟩
abbrev main_v30 : Ref sig .tc := ⟨.hbm, 37, rfl⟩
abbrev main_c_4 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_cst : Ref sig .tc := ⟨.hbm, 46, rfl⟩
abbrev main_v38 : Ref sig .tc := ⟨.hbm, 47, rfl⟩
abbrev main_v39 : Ref sig .tc := ⟨.hbm, 48, rfl⟩
abbrev main_cst_5 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_cst_6 : Ref sig .tc := ⟨.hbm, 55, rfl⟩
abbrev main_v45 : Ref sig .tc := ⟨.hbm, 56, rfl⟩
abbrev main_cst_7 : Ref sig .tc := ⟨.hbm, 57, rfl⟩
abbrev main_v46 : Ref sig .tc := ⟨.hbm, 58, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x2x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1024x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  transposes_S8x64x64x2_S8x2x64x64_0_3_1_2 : S8x64x64x2.Transposes [0, 3, 1, 2] S8x2x64x64
  shapeCasts_S8x2x64x64_S8x2x4096 : S8x2x64x64.ShapeCasts S8x2x4096
  inb_S2x4096_S2x4096_0_0 : ∀ a, (![0, 0] : Fin 2 → Nat) a + S2x4096.size a ≤ S2x4096.size a
  h_S2x4096 : 0 < S2x4096.numel
  shapeCasts_S2x4096_S2x4096 : S2x4096.ShapeCasts S2x4096
  inb_S1x2x1024_S1x2x512_0_0_0 : ∀ a, (![0, 0, 0] : Fin 3 → Nat) a + S1x2x512.size a ≤ S1x2x1024.size a
  h_S1x2x512 : 0 < S1x2x512.numel
  shapeCasts_S1x2x512_S2x512 : S1x2x512.ShapeCasts S2x512
  bitsLt_bf16_f32 : FTy.bits .bf16 < FTy.bits .f32
  inb_S1x1024x4096_S1x512x4096_0_0_0 : ∀ a, (![0, 0, 0] : Fin 3 → Nat) a + S1x512x4096.size a ≤ S1x1024x4096.size a
  h_S1x512x4096 : 0 < S1x512x4096.numel
  shapeCasts_S1x512x4096_S512x4096 : S1x512x4096.ShapeCasts S512x4096
  inb_S1x2x1024_S1x2x512_0_0_512 : ∀ a, (![0, 0, 512] : Fin 3 → Nat) a + S1x2x512.size a ≤ S1x2x1024.size a
  inb_S1x1024x4096_S1x512x4096_0_512_0 : ∀ a, (![0, 512, 0] : Fin 3 → Nat) a + S1x512x4096.size a ≤ S1x1024x4096.size a
  inb_S1x2x4096_S1x2x4096_0_0_0 : ∀ a, (![0, 0, 0] : Fin 3 → Nat) a + S1x2x4096.size a ≤ S1x2x4096.size a
  h_S1x2x4096 : 0 < S1x2x4096.numel
  shapeCasts_S1x2x4096_S2x4096 : S1x2x4096.ShapeCasts S2x4096
  shapeCasts_S2x4096_S1x2x4096 : S2x4096.ShapeCasts S1x2x4096
  shapeCasts_S8x2x4096_S8x2x64x64 : S8x2x4096.ShapeCasts S8x2x64x64
  bcast_S_S15 : S_.BroadcastsInDim S15 (![] : Fin 0 → Fin S15.rank)
  bcast_S15_S15x1_0 : S15.BroadcastsInDim S15x1 (![0] : Fin 1 → Fin S15x1.rank)
  bcast_S8_S1x8_1 : S8.BroadcastsInDim S1x8 (![1] : Fin 1 → Fin S1x8.rank)
  bcast_S15x1_S15x8_0_1 : S15x1.BroadcastsInDim S15x8 (![0, 1] : Fin 2 → Fin S15x8.rank)
  bcast_S1x8_S15x8_0_1 : S1x8.BroadcastsInDim S15x8 (![0, 1] : Fin 2 → Fin S15x8.rank)
  bcast_S_S15x8 : S_.BroadcastsInDim S15x8 (![] : Fin 0 → Fin S15x8.rank)
  bcast_S15x8_S15x8x1_0_1 : S15x8.BroadcastsInDim S15x8x1 (![0, 1] : Fin 2 → Fin S15x8x1.rank)
  transposes_S8x2x15x8x15x8_S8x2x15x15x8x8_0_1_2_4_3_5 : S8x2x15x8x15x8.Transposes [0, 1, 2, 4, 3, 5] S8x2x15x15x8x8
  shapeCasts_S8x2x15x15x8x8_S8x2x225x64 : S8x2x15x15x8x8.ShapeCasts S8x2x225x64
  reducesTo_S8x2x225x64_S8x2x225_d3 : S8x2x225x64.ReducesTo [3] S8x2x225
  h_S_ : 0 < S_.numel
  bcast_S8x2x225_S8x2x225x1_0_1_2 : S8x2x225.BroadcastsInDim S8x2x225x1 (![0, 1, 2] : Fin 3 → Fin S8x2x225x1.rank)
  bcast_S_S8x2x225x1 : S_.BroadcastsInDim S8x2x225x1 (![] : Fin 0 → Fin S8x2x225x1.rank)
  bcast_S8x2x225x1_S8x2x225x64_0_1_2_3 : S8x2x225x1.BroadcastsInDim S8x2x225x64 (![0, 1, 2, 3] : Fin 4 → Fin S8x2x225x64.rank)
  reducesTo_S8x2x225x64_S_d0_1_2_3 : S8x2x225x64.ReducesTo [0, 1, 2, 3] S_
  dot_S2x512_S512x4096_S2x4096_1_0_0_1_n_n_wf : DotDims.WF S2x512 S512x4096 S2x4096 [1] [0] [0] [1] [] []
  gather_S8x2x64x64_S15x8x1_S8x2x15x8x64_014_2_n_n_2_2_82164_wf : GatherDims.WF S8x2x64x64 S15x8x1 S8x2x15x8x64 [0, 1, 4] [2] [] [2] [] 2 ![8, 2, 1, 64]
  gather_S8x2x15x8x64_S15x8x1_S8x2x15x8x15x8_0123_4_n_n_4_2_821581_wf : GatherDims.WF S8x2x15x8x64 S15x8x1 S8x2x15x8x15x8 [0, 1, 2, 3] [4] [] [4] [] 2 ![8, 2, 15, 8, 1]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x2x1024.size a ≤ S8x2x4096.size a
  hwx0_0 : ∀ i : grid0.Coords, EltTy.bits .f32 = 32 ∨ (Rect.block (s := S8x2x4096) S1x2x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1024x4096.size a ≤ S8x4096x4096.size a
  hwx0_1 : ∀ i : grid0.Coords, EltTy.bits .f32 = 32 ∨ (Rect.block (s := S8x4096x4096) S1x1024x4096.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x2x4096.size a ≤ S8x2x4096.size a
  hwx0_2 : ∀ i : grid0.Coords, EltTy.bits .f32 = 32 ∨ (Rect.block (s := S8x2x4096) S1x2x4096.size (cc0_transform_2 i) (hinb0_2 i)).WholeWords (EltTy.packing .f32)

variable [Facts₀]

def dot_S2x512_S512x4096_S2x4096_1_0_0_1_n_n : DotDims S2x512 S512x4096 S2x4096 where
  lhsContracting := [1]
  rhsContracting := [0]
  lhsNonContracting := [0]
  rhsNonContracting := [1]
  lhsBatch := []
  rhsBatch := []
  wf := dot_S2x512_S512x4096_S2x4096_1_0_0_1_n_n_wf
def gather_S8x2x64x64_S15x8x1_S8x2x15x8x64_014_2_n_n_2_2_82164 : GatherDims S8x2x64x64 S15x8x1 S8x2x15x8x64 where
  offsetDims := [0, 1, 4]
  collapsedSliceDims := [2]
  operandBatchingDims := []
  startIndicesBatchingDims := []
  startIndexMap := [2]
  indexVectorDim := 2
  sliceSizes := ![8, 2, 1, 64]
  wf := gather_S8x2x64x64_S15x8x1_S8x2x15x8x64_014_2_n_n_2_2_82164_wf
def gather_S8x2x15x8x64_S15x8x1_S8x2x15x8x15x8_0123_4_n_n_4_2_821581 : GatherDims S8x2x15x8x64 S15x8x1 S8x2x15x8x15x8 where
  offsetDims := [0, 1, 2, 3]
  collapsedSliceDims := [4]
  operandBatchingDims := []
  startIndicesBatchingDims := []
  startIndexMap := [4]
  indexVectorDim := 2
  sliceSizes := ![8, 2, 15, 8, 1]
  wf := gather_S8x2x15x8x64_S15x8x1_S8x2x15x8x15x8_0123_4_n_n_4_2_821581_wf

abbrev win0_0 : Pipeline.Window sig grid0 :=
  Pipeline.Window.ofSpec (Memref.whole main_v1) S1x2x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S1x1024x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x2x4096.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S8x4096x4096 : Shape := ⟨3, ![8, 4096, 4096]⟩
abbrev S8x64x64x2 : Shape := ⟨4, ![8, 64, 64, 2]⟩
abbrev S8x2x64x64 : Shape := ⟨4, ![8, 2, 64, 64]⟩
abbrev S8x2x4096 : Shape := ⟨3, ![8, 2, 4096]⟩
abbrev S15 : Shape := ⟨1, ![15]⟩
abbrev S_ : Shape := ⟨0, ![]⟩
abbrev S15x1 : Shape := ⟨2, ![15, 1]⟩
abbrev S8 : Shape := ⟨1, ![8]⟩
abbrev S1x8 : Shape := ⟨2, ![1, 8]⟩
abbrev S15x8 : Shape := ⟨2, ![15, 8]⟩
abbrev S15x8x1 : Shape := ⟨3, ![15, 8, 1]⟩
abbrev S8x2x15x8x64 : Shape := ⟨5, ![8, 2, 15, 8, 64]⟩
abbrev S8x2x15x8x15x8 : Shape := ⟨6, ![8, 2, 15, 8, 15, 8]⟩
abbrev S8x2x15x15x8x8 : Shape := ⟨6, ![8, 2, 15, 15, 8, 8]⟩
abbrev S8x2x225x64 : Shape := ⟨4, ![8, 2, 225, 64]⟩
abbrev S8x2x225 : Shape := ⟨3, ![8, 2, 225]⟩
abbrev S8x2x225x1 : Shape := ⟨4, ![8, 2, 225, 1]⟩

abbrev nBuf : Space → Nat
  | .hbm => 59
  | .vmem => 0
  | .smem => 0
  | _ => 0

abbrev bufTy : (tb : Table) → Fin (tcTables nBuf tb) → BufTy
  | .hbm, ⟨0, _⟩ => ⟨S8x4096x4096, .f32⟩
  | .hbm, ⟨1, _⟩ => ⟨S8x64x64x2, .f32⟩
  | .hbm, ⟨2, _⟩ => ⟨S8x2x64x64, .f32⟩
  | .hbm, ⟨3, _⟩ => ⟨S8x2x4096, .f32⟩
  | .hbm, ⟨4, _⟩ => ⟨S8x2x4096, .f32⟩
  | .hbm, ⟨5, _⟩ => ⟨S8x2x64x64, .f32⟩
  | .hbm, ⟨6, _⟩ => ⟨S15, .i32⟩
  | .hbm, ⟨7, _⟩ => ⟨S_, .i32⟩
  | .hbm, ⟨8, _⟩ => ⟨S15, .i32⟩
  | .hbm, ⟨9, _⟩ => ⟨S15, .i32⟩
  | .hbm, ⟨10, _⟩ => ⟨S15, .i32⟩
  | .hbm, ⟨11, _⟩ => ⟨S_, .i32⟩
  | .hbm, ⟨12, _⟩ => ⟨S15, .i32⟩
  | .hbm, ⟨13, _⟩ => ⟨S15, .i32⟩
  | .hbm, ⟨14, _⟩ => ⟨S15x1, .i32⟩
  | .hbm, ⟨15, _⟩ => ⟨S8, .i32⟩
  | .hbm, ⟨16, _⟩ => ⟨S1x8, .i32⟩
  | .hbm, ⟨17, _⟩ => ⟨S15x8, .i32⟩
  | .hbm, ⟨18, _⟩ => ⟨S15x8, .i32⟩
  | .hbm, ⟨19, _⟩ => ⟨S15x8, .i32⟩
  | .hbm, ⟨20, _⟩ => ⟨S_, .i32⟩
  | .hbm, ⟨21, _⟩ => ⟨S15x8, .i32⟩
  | .hbm, ⟨22, _⟩ => ⟨S15x8, .i1⟩
  | .hbm, ⟨23, _⟩ => ⟨S_, .i32⟩
  | .hbm, ⟨24, _⟩ => ⟨S15x8, .i32⟩
  | .hbm, ⟨25, _⟩ => ⟨S15x8, .i32⟩
  | .hbm, ⟨26, _⟩ => ⟨S15x8, .i32⟩
  | .hbm, ⟨27, _⟩ => ⟨S15x8x1, .i32⟩
  | .hbm, ⟨28, _⟩ => ⟨S8x2x15x8x64, .f32⟩
  | .hbm, ⟨29, _⟩ => ⟨S15x1, .i32⟩
  | .hbm, ⟨30, _⟩ => ⟨S8, .i32⟩
  | .hbm, ⟨31, _⟩ => ⟨S1x8, .i32⟩
  | .hbm, ⟨32, _⟩ => ⟨S15x8, .i32⟩
  | .hbm, ⟨33, _⟩ => ⟨S15x8, .i32⟩
  | .hbm, ⟨34, _⟩ => ⟨S15x8, .i32⟩
  | .hbm, ⟨35, _⟩ => ⟨S_, .i32⟩
  | .hbm, ⟨36, _⟩ => ⟨S15x8, .i32⟩
  | .hbm, ⟨37, _⟩ => ⟨S15x8, .i1⟩
  | .hbm, ⟨38, _⟩ => ⟨S_, .i32⟩
  | .hbm, ⟨39, _⟩ => ⟨S15x8, .i32⟩
  | .hbm, ⟨40, _⟩ => ⟨S15x8, .i32⟩
  | .hbm, ⟨41, _⟩ => ⟨S15x8, .i32⟩
  | .hbm, ⟨42, _⟩ => ⟨S15x8x1, .i32⟩
  | .hbm, ⟨43, _⟩ => ⟨S8x2x15x8x15x8, .f32⟩
  | .hbm, ⟨44, _⟩ => ⟨S8x2x15x15x8x8, .f32⟩
  | .hbm, ⟨45, _⟩ => ⟨S8x2x225x64, .f32⟩
  | .hbm, ⟨46, _⟩ => ⟨S_, .f32⟩
  | .hbm, ⟨47, _⟩ => ⟨S8x2x225, .f32⟩
  | .hbm, ⟨48, _⟩ => ⟨S8x2x225x1, .f32⟩
  | .hbm, ⟨49, _⟩ => ⟨S_, .f32⟩
  | .hbm, ⟨50, _⟩ => ⟨S8x2x225x1, .f32⟩
  | .hbm, ⟨51, _⟩ => ⟨S8x2x225x1, .f32⟩
  | .hbm, ⟨52, _⟩ => ⟨S8x2x225x64, .f32⟩
  | .hbm, ⟨53, _⟩ => ⟨S8x2x225x64, .f32⟩
  | .hbm, ⟨54, _⟩ => ⟨S8x2x225x64, .f32⟩
  | .hbm, ⟨55, _⟩ => ⟨S_, .f32⟩
  | .hbm, ⟨56, _⟩ => ⟨S_, .f32⟩
  | .hbm, ⟨57, _⟩ => ⟨S_, .f32⟩
  | .hbm, ⟨58, _⟩ => ⟨S_, .f32⟩
  | _, _ => ⟨S8x4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_c : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_c_0 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_c_1 : Ref sig .tc := ⟨.hbm, 20, rfl⟩
abbrev main_v16 : Ref sig .tc := ⟨.hbm, 21, rfl⟩
abbrev main_v17 : Ref sig .tc := ⟨.hbm, 22, rfl⟩
abbrev main_c_2 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_c_3 : Ref sig .tc := ⟨.hbm, 35, rfl⟩
abbrev main_v29 : Ref sig .tc := ⟨.hbm, 36, rfl⟩
abbrev main_v30 : Ref sig .tc := ⟨.hbm, 37, rfl⟩
abbrev main_c_4 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_cst : Ref sig .tc := ⟨.hbm, 46, rfl⟩
abbrev main_v38 : Ref sig .tc := ⟨.hbm, 47, rfl⟩
abbrev main_v39 : Ref sig .tc := ⟨.hbm, 48, rfl⟩
abbrev main_cst_5 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_cst_6 : Ref sig .tc := ⟨.hbm, 55, rfl⟩
abbrev main_v45 : Ref sig .tc := ⟨.hbm, 56, rfl⟩
abbrev main_cst_7 : Ref sig .tc := ⟨.hbm, 57, rfl⟩
abbrev main_v46 : Ref sig .tc := ⟨.hbm, 58, rfl⟩

abbrev nD : Nat := 1
abbrev τ : Topo := Topo.v7x

variable {F : FTy → Type} [FloatOps F]

class Facts₀ : Prop where
  transposes_S8x64x64x2_S8x2x64x64_0_3_1_2 : S8x64x64x2.Transposes [0, 3, 1, 2] S8x2x64x64
  shapeCasts_S8x2x64x64_S8x2x4096 : S8x2x64x64.ShapeCasts S8x2x4096
  shapeCasts_S8x2x4096_S8x2x64x64 : S8x2x4096.ShapeCasts S8x2x64x64
  bcast_S_S15 : S_.BroadcastsInDim S15 (![] : Fin 0 → Fin S15.rank)
  bcast_S15_S15x1_0 : S15.BroadcastsInDim S15x1 (![0] : Fin 1 → Fin S15x1.rank)
  bcast_S8_S1x8_1 : S8.BroadcastsInDim S1x8 (![1] : Fin 1 → Fin S1x8.rank)
  bcast_S15x1_S15x8_0_1 : S15x1.BroadcastsInDim S15x8 (![0, 1] : Fin 2 → Fin S15x8.rank)
  bcast_S1x8_S15x8_0_1 : S1x8.BroadcastsInDim S15x8 (![0, 1] : Fin 2 → Fin S15x8.rank)
  bcast_S_S15x8 : S_.BroadcastsInDim S15x8 (![] : Fin 0 → Fin S15x8.rank)
  bcast_S15x8_S15x8x1_0_1 : S15x8.BroadcastsInDim S15x8x1 (![0, 1] : Fin 2 → Fin S15x8x1.rank)
  transposes_S8x2x15x8x15x8_S8x2x15x15x8x8_0_1_2_4_3_5 : S8x2x15x8x15x8.Transposes [0, 1, 2, 4, 3, 5] S8x2x15x15x8x8
  shapeCasts_S8x2x15x15x8x8_S8x2x225x64 : S8x2x15x15x8x8.ShapeCasts S8x2x225x64
  reducesTo_S8x2x225x64_S8x2x225_d3 : S8x2x225x64.ReducesTo [3] S8x2x225
  h_S_ : 0 < S_.numel
  bcast_S8x2x225_S8x2x225x1_0_1_2 : S8x2x225.BroadcastsInDim S8x2x225x1 (![0, 1, 2] : Fin 3 → Fin S8x2x225x1.rank)
  bcast_S_S8x2x225x1 : S_.BroadcastsInDim S8x2x225x1 (![] : Fin 0 → Fin S8x2x225x1.rank)
  bcast_S8x2x225x1_S8x2x225x64_0_1_2_3 : S8x2x225x1.BroadcastsInDim S8x2x225x64 (![0, 1, 2, 3] : Fin 4 → Fin S8x2x225x64.rank)
  reducesTo_S8x2x225x64_S_d0_1_2_3 : S8x2x225x64.ReducesTo [0, 1, 2, 3] S_
  dot_S8x2x4096_S8x4096x4096_S8x2x4096_2_1_1_2_0_0_wf : DotDims.WF S8x2x4096 S8x4096x4096 S8x2x4096 [2] [1] [1] [2] [0] [0]
  gather_S8x2x64x64_S15x8x1_S8x2x15x8x64_014_2_n_n_2_2_82164_wf : GatherDims.WF S8x2x64x64 S15x8x1 S8x2x15x8x64 [0, 1, 4] [2] [] [2] [] 2 ![8, 2, 1, 64]
  gather_S8x2x15x8x64_S15x8x1_S8x2x15x8x15x8_0123_4_n_n_4_2_821581_wf : GatherDims.WF S8x2x15x8x64 S15x8x1 S8x2x15x8x15x8 [0, 1, 2, 3] [4] [] [4] [] 2 ![8, 2, 15, 8, 1]

variable [Facts₀]

def dot_S8x2x4096_S8x4096x4096_S8x2x4096_2_1_1_2_0_0 : DotDims S8x2x4096 S8x4096x4096 S8x2x4096 where
  lhsContracting := [2]
  rhsContracting := [1]
  lhsNonContracting := [1]
  rhsNonContracting := [2]
  lhsBatch := [0]
  rhsBatch := [0]
  wf := dot_S8x2x4096_S8x4096x4096_S8x2x4096_2_1_1_2_0_0_wf
def gather_S8x2x64x64_S15x8x1_S8x2x15x8x64_014_2_n_n_2_2_82164 : GatherDims S8x2x64x64 S15x8x1 S8x2x15x8x64 where
  offsetDims := [0, 1, 4]
  collapsedSliceDims := [2]
  operandBatchingDims := []
  startIndicesBatchingDims := []
  startIndexMap := [2]
  indexVectorDim := 2
  sliceSizes := ![8, 2, 1, 64]
  wf := gather_S8x2x64x64_S15x8x1_S8x2x15x8x64_014_2_n_n_2_2_82164_wf
def gather_S8x2x15x8x64_S15x8x1_S8x2x15x8x15x8_0123_4_n_n_4_2_821581 : GatherDims S8x2x15x8x64 S15x8x1 S8x2x15x8x15x8 where
  offsetDims := [0, 1, 2, 3]
  collapsedSliceDims := [4]
  operandBatchingDims := []
  startIndicesBatchingDims := []
  startIndexMap := [4]
  indexVectorDim := 2
  sliceSizes := ![8, 2, 15, 8, 1]
  wf := gather_S8x2x15x8x64_S15x8x1_S8x2x15x8x15x8_0123_4_n_n_4_2_821581_wf

class Facts : Prop extends Facts₀ where

variable [Facts]
-- ==== Proof.Body.lean ====
/-
  What one grid point of the kernel leaves behind, as a value.

  The body keeps a 2 × 4096 accumulator in scratch memory. At a point it (at the first block of a batch only) stores
  zeros into the accumulator, then twice reads the accumulator, adds the product of one half of the point's block of
  `g` (2 × 512) with the matching half of its block of `aff` (512 × 4096), and stores the sum back; finally it copies
  the accumulator into the output block. So whatever the accumulator held before (`acc`; the zero splat at a batch's
  first block), afterwards it holds `step x0 x1 acc`, and the output block holds the same array under a leading unit
  axis. The stores and loads all go through the whole buffers, so each read-back is the last store's value.
-/
import proofs.«128056_j84945863180964_2_alg».proof.Proof.Gen.KernelIdeal.Frame
import Idealize.ShloMosaic.Lib.Pipeline.Value
import Idealize.ShloMosaic.Lib.Tactic

noncomputable section

namespace Cert.KernelIdeal.Body

open Idealize.ShloMosaic Idealize.ShloMosaic.TcCoe Idealize.SL.Sem
open Cert.KernelIdeal Cert.KernelIdeal.Gen

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- The two halves (along the contraction axis) of a point's block of `g`, and of its block of `aff`. -/
abbrev gLo (x0 : Vec F S1x2x1024 .f32) : Vec F S1x2x512 .f32 :=
  View.ld x0 (Rect.unit (s := S1x2x1024) ![0, 0, 0] S1x2x512.size Facts₀.inb_S1x2x1024_S1x2x512_0_0_0)
abbrev gHi (x0 : Vec F S1x2x1024 .f32) : Vec F S1x2x512 .f32 :=
  View.ld x0 (Rect.unit (s := S1x2x1024) ![0, 0, 512] S1x2x512.size Facts₀.inb_S1x2x1024_S1x2x512_0_0_512)
abbrev aLo (x1 : Vec F S1x1024x4096 .f32) : Vec F S1x512x4096 .f32 :=
  View.ld x1 (Rect.unit (s := S1x1024x4096) ![0, 0, 0] S1x512x4096.size Facts₀.inb_S1x1024x4096_S1x512x4096_0_0_0)
abbrev aHi (x1 : Vec F S1x1024x4096 .f32) : Vec F S1x512x4096 .f32 :=
  View.ld x1 (Rect.unit (s := S1x1024x4096) ![0, 512, 0] S1x512x4096.size Facts₀.inb_S1x1024x4096_S1x512x4096_0_512_0)

/-- The accumulator after a point, from the point's two blocks and the accumulator before it. -/
def step (x0 : Vec F S1x2x1024 .f32) (x1 : Vec F S1x1024x4096 .f32) (acc : Vec F S2x4096 .f32) : Vec F S2x4096 .f32 :=
  k0_pay4 (gHi x0) (aHi x1) (k0_pay3 (gLo x0) (aLo x1) acc)

/-- A later block of a batch: the accumulator the point before left, stepped. -/
theorem sout_B (c : Dev nD) (i : grid0.Coords) (a2 : Memref sig .tc .vmem S1x2x1024 .f32) (h2 : a2.IsWhole)
    (a3 : Memref sig .tc .vmem S1x1024x4096 .f32) (h3 : a3.IsWhole) (a4 : Memref sig .tc .vmem S1x2x4096 .f32) (h4 : a4.IsWhole)
    (a5 : Memref sig .tc .vmem S2x4096 .f32) (h5 : a5.IsWhole) (hc : ¬cond0_0 i)
    (x0 : Vec F S1x2x1024 .f32) (x1 : Vec F S1x1024x4096 .f32) (xs : Vec F S2x4096 .f32) :
    sout0_B_0 c i a2 h2 a3 h3 a4 h4 a5 h5 hc x0 x1 xs = step x0 x1 xs := by
  unfold sout0_B_0
  rw [View.read_writes_eq_canon _ _ _ (scover0_B_0 c i a2 h2 a3 h3 a4 h4 a5 h5 hc x0 x1 xs)]
  unfold kernelRun0_B
  dsimp only
  sl_unfold_words
  rw [View.canon_cons_unit_zero (S := S2x4096) hz2, View.readCov_cons_toLoadRect]
  simp only [View.readAt_eq_ld, h2.read_unread, h3.read_unread, h5.read_unread, View.ld_unit_zero (S := S2x4096) hz2]
  rfl

/-- and the output block is that accumulator. -/
theorem out_B (c : Dev nD) (i : grid0.Coords) (a2 : Memref sig .tc .vmem S1x2x1024 .f32) (h2 : a2.IsWhole)
    (a3 : Memref sig .tc .vmem S1x1024x4096 .f32) (h3 : a3.IsWhole) (a4 : Memref sig .tc .vmem S1x2x4096 .f32) (h4 : a4.IsWhole)
    (a5 : Memref sig .tc .vmem S2x4096 .f32) (h5 : a5.IsWhole) (hc : ¬cond0_0 i)
    (x0 : Vec F S1x2x1024 .f32) (x1 : Vec F S1x1024x4096 .f32) (xs : Vec F S2x4096 .f32) :
    out0_B_2 c i a2 h2 a3 h3 a4 h4 a5 h5 hc x0 x1 xs = k0_pay1 (step x0 x1 xs) := by
  unfold out0_B_2
  rw [View.read_writes_eq_canon _ _ _ (cover0_B_2 c i a2 h2 a3 h3 a4 h4 a5 h5 hc x0 x1 xs)]
  unfold kernelRun0_B
  dsimp only
  sl_unfold_words
  rw [View.canon_unit_zero (S := S1x2x4096) hz3, View.readCov_cons_toLoadRect, View.readCov_cons_toLoadRect]
  simp only [View.readAt_eq_ld, h2.read_unread, h3.read_unread, h5.read_unread, View.ld_unit_zero (S := S2x4096) hz2]
  rfl

/-- The first block of a batch: the accumulator is zeroed first, then stepped. -/
theorem sout_A (c : Dev nD) (i : grid0.Coords) (a2 : Memref sig .tc .vmem S1x2x1024 .f32) (h2 : a2.IsWhole)
    (a3 : Memref sig .tc .vmem S1x1024x4096 .f32) (h3 : a3.IsWhole) (a4 : Memref sig .tc .vmem S1x2x4096 .f32) (h4 : a4.IsWhole)
    (a5 : Memref sig .tc .vmem S2x4096 .f32) (h5 : a5.IsWhole) (hc : cond0_0 i)
    (x0 : Vec F S1x2x1024 .f32) (x1 : Vec F S1x1024x4096 .f32) :
    sout0_A_0 c i a2 h2 a3 h3 a4 h4 a5 h5 hc x0 x1 = step x0 x1 k0_pay2 := by
  unfold sout0_A_0
  rw [View.read_writes_eq_canon _ _ _ (scover0_A_0 c i a2 h2 a3 h3 a4 h4 a5 h5 hc x0 x1)]
  unfold kernelRun0_A
  dsimp only
  sl_unfold_words
  rw [View.canon_cons_unit_zero (S := S2x4096) hz2, View.readCov_cons_toLoadRect, View.readCov_cons_toLoadRect]
  simp only [View.readAt_eq_ld, h2.read_unread, h3.read_unread, View.ld_unit_zero (S := S2x4096) hz2]
  rfl

theorem out_A (c : Dev nD) (i : grid0.Coords) (a2 : Memref sig .tc .vmem S1x2x1024 .f32) (h2 : a2.IsWhole)
    (a3 : Memref sig .tc .vmem S1x1024x4096 .f32) (h3 : a3.IsWhole) (a4 : Memref sig .tc .vmem S1x2x4096 .f32) (h4 : a4.IsWhole)
    (a5 : Memref sig .tc .vmem S2x4096 .f32) (h5 : a5.IsWhole) (hc : cond0_0 i)
    (x0 : Vec F S1x2x1024 .f32) (x1 : Vec F S1x1024x4096 .f32) :
    out0_A_2 c i a2 h2 a3 h3 a4 h4 a5 h5 hc x0 x1 = k0_pay1 (step x0 x1 k0_pay2) := by
  unfold out0_A_2
  rw [View.read_writes_eq_canon _ _ _ (cover0_A_2 c i a2 h2 a3 h3 a4 h4 a5 h5 hc x0 x1)]
  unfold kernelRun0_A
  dsimp only
  sl_unfold_words
  rw [View.canon_unit_zero (S := S1x2x4096) hz3, View.readCov_cons_toLoadRect, View.readCov_cons_toLoadRect,
    View.readCov_cons_toLoadRect]
  simp only [View.readAt_eq_ld, h2.read_unread, h3.read_unread, View.ld_unit_zero (S := S2x4096) hz2]
  rfl

end Cert.KernelIdeal.Body

end
-- ==== Proof.LibDot.lean ====
/-
  A matrix product read at an index, on the extended reals.

  For a rows × contraction by contraction × columns product — the dimension numbers that contract the left operand's
  second axis with the right operand's first, with no batch axis — the entry at (i, j) of the host's `dot_general`,
  and of a `tpu.matmul` accumulated into the zero splat, is the plain sum over the contraction coordinate k of
  l (i, k) · r (k, j). The sum over the product's own contraction index is re-indexed through the bijection between a
  one-axis contraction index and its coordinate; the operand indices are computed from the dimension numbers.
  Nothing here needs finiteness: only that the sum is re-indexed.
-/
import Idealize.ShloMosaic.Lib.ValueIdx
import Idealize.ShloMosaic.PureOps.Ideal.Laws

noncomputable section

namespace Cert.LibDot

open Idealize.ShloMosaic Idealize.ShloMosaic.ValueIdx

variable {M K N : Nat}

/-- The contraction of row `y 0` of `l` with column `y 1` of `r`: the sum over the product's contraction index is
    the sum over the one contracted coordinate. -/
theorem sum_plain (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (l : (⟨2, ![M, K]⟩ : Shape).Idx → EReal) (r : (⟨2, ![K, N]⟩ : Shape).Idx → EReal) (y : (⟨2, ![M, N]⟩ : Shape).Idx) :
    ∑ q : d.contr.Idx, l (d.lhsIdx y q) * r (d.rhsIdx y q) = ∑ k : Fin K, l (ix2 (y 0) k) * r (ix2 k (y 1)) := by
  obtain ⟨lc, rc, ln, rn, lb, rb, wf⟩ := d
  dsimp only at hlc hrc hln hrn hlb hrb
  subst hlc hrc hln hrn hlb hrb
  rw [← Equiv.sum_comp (contrEquiv1 (⟨[1], [0], [0], [1], [], [], wf⟩ : DotDims ⟨2, ![M, K]⟩ ⟨2, ![K, N]⟩ ⟨2, ![M, N]⟩) K rfl rfl).symm]
  refine Finset.sum_congr rfl fun k _ => ?_
  have hk := contrEquiv1_symm_val (⟨[1], [0], [0], [1], [], [], wf⟩ : DotDims ⟨2, ![M, K]⟩ ⟨2, ![K, N]⟩ ⟨2, ![M, N]⟩) K rfl rfl k
  have el : DotDims.lhsIdx (⟨[1], [0], [0], [1], [], [], wf⟩ : DotDims ⟨2, ![M, K]⟩ ⟨2, ![K, N]⟩ ⟨2, ![M, N]⟩) y
      ((contrEquiv1 (⟨[1], [0], [0], [1], [], [], wf⟩ : DotDims ⟨2, ![M, K]⟩ ⟨2, ![K, N]⟩ ⟨2, ![M, N]⟩) K rfl rfl).symm k)
      = ix2 (y 0) k := funext fun a => Fin.ext (by
    match a with
    | ⟨0, _⟩ =>
      unfold DotDims.lhsIdx
      rw [dif_neg (by simp), dif_pos (by simp)]
      rfl
    | ⟨1, _⟩ => exact (DotDims.lhsIdx_val_of_single _ rfl y _).trans hk)
  have er : DotDims.rhsIdx (⟨[1], [0], [0], [1], [], [], wf⟩ : DotDims ⟨2, ![M, K]⟩ ⟨2, ![K, N]⟩ ⟨2, ![M, N]⟩) y
      ((contrEquiv1 (⟨[1], [0], [0], [1], [], [], wf⟩ : DotDims ⟨2, ![M, K]⟩ ⟨2, ![K, N]⟩ ⟨2, ![M, N]⟩) K rfl rfl).symm k)
      = ix2 k (y 1) := funext fun a => Fin.ext (by
    match a with
    | ⟨0, _⟩ => exact (DotDims.rhsIdx_val_of_single _ rfl y _).trans hk
    | ⟨1, _⟩ =>
      unfold DotDims.rhsIdx
      rw [dif_neg (by simp), dif_pos (by simp)]
      rfl)
  rw [el, er]
  rfl

variable {φ₁ φ₂ : FTy}

/-- The host's `dot_general` of those dimension numbers, at an index: the sum over the contracted coordinate. -/
theorem dotGeneral_plain_apply (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision) (sched : HostSchedule)
    (l : FVec Ideal ⟨2, ![M, K]⟩ φ₁) (r : FVec Ideal ⟨2, ![K, N]⟩ φ₂) (y : (⟨2, ![M, N]⟩ : Shape).Idx) :
    FloatOps.dotGeneral d prec sched l r y = ∑ k : Fin K, l (ix2 (y 0) k) * r (ix2 k (y 1)) := by
  rw [Ideal.dotGeneral_apply]
  exact sum_plain d hlc hrc hln hrn hlb hrb l r y

/-- A `tpu.matmul` of those dimension numbers into the zero accumulator, at an index: the same sum. -/
theorem matmul_zero_plain_apply (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision)
    (l : FVec Ideal ⟨2, ![M, K]⟩ φ₁) (r : FVec Ideal ⟨2, ![K, N]⟩ φ₂) (y : (⟨2, ![M, N]⟩ : Shape).Idx) :
    FloatOps.matmul d prec l r (constant ⟨2, ![M, N]⟩ .f32 0x00000000#32) y
      = ∑ k : Fin K, l (ix2 (y 0) k) * r (ix2 k (y 1)) := by
  rw [Ideal.matmul_constant_zero_apply]
  exact sum_plain d hlc hrc hln hrn hlb hrb l r y

end Cert.LibDot

end
-- ==== Proof.Pay.lean ====
/-
  One grid point's arithmetic, read at an entry, on the extended reals.

  On the extended reals a change of float format is the identity, so the two roundings to bf16 on the way into the
  matrix unit disappear, and a `tpu.matmul` into the zero splat is the plain sum over the contracted coordinate. Hence
  entry (r, n) of the accumulator after a point is the entry before it, plus the sum over the 512 coordinates of the
  block's first half of g (0, r, j) · a (0, j, n), plus the same sum over the second half (coordinates 512 + j) — in
  that order. The reset value is the real number 0, and the copy into the output block only adds a leading unit axis.
-/
import proofs.«128056_j84945863180964_2_alg».proof.Proof.Body
import proofs.«128056_j84945863180964_2_alg».proof.Proof.LibDot
import Idealize.ShloMosaic.Lib.ValueLayout

noncomputable section

namespace Cert.KernelIdeal.Pay

open Idealize.ShloMosaic Idealize.ShloMosaic.TcCoe Idealize.ShloMosaic.ValueIdx Idealize.SL.Sem
open Cert.KernelIdeal Cert.KernelIdeal.Gen Cert.KernelIdeal.Body

/-- One half-block's contribution: the accumulator's entry plus the sum over the half's 512 coordinates. -/
theorem chunk_apply (d : DotDims S2x512 S512x4096 S2x4096)
    (hlc : d.lhsContracting = [1]) (hrc : d.rhsContracting = [0]) (hln : d.lhsNonContracting = [0])
    (hrn : d.rhsNonContracting = [1]) (hlb : d.lhsBatch = []) (hrb : d.rhsBatch = [])
    (gb : FVec Ideal S1x2x512 .f32) (ab : FVec Ideal S1x512x4096 .f32) (acc : FVec Ideal S2x4096 .f32)
    (h1 : S1x2x512.ShapeCasts S2x512) (h2 : FTy.bits .bf16 < FTy.bits .f32) (h3 : S1x512x4096.ShapeCasts S512x4096)
    (h4 : S2x4096.ShapeCasts S2x4096) (r : Fin 2) (n : Fin 4096) :
    shapeCast S2x4096 (addf acc (matmul d none (truncf .bf16 (shapeCast S2x512 gb h1) h2)
      (truncf .bf16 (shapeCast S512x4096 ab h3) h2) (constant (F := Ideal) S2x4096 .f32 0x00000000#32))) h4 (ix2 r n)
      = acc (ix2 r n) + ∑ j : Fin 512, gb (ix3 (0 : Fin 1) r j) * ab (ix3 (0 : Fin 1) j n) := by
  rw [shapeCast_self]
  show acc (ix2 r n) + FloatOps.matmul d none _ _ _ (ix2 r n) = _
  rw [Cert.LibDot.matmul_zero_plain_apply d hlc hrc hln hrn hlb hrb]
  refine congrArg (acc (ix2 r n) + ·) (Finset.sum_congr rfl fun j _ => ?_)
  show shapeCast S2x512 gb h1 (ix2 r j) * shapeCast S512x4096 ab h3 (ix2 j n) = _
  rw [shapeCast_1ab_ab_apply, shapeCast_1ab_ab_apply]

theorem pay3_apply (gb : FVec Ideal S1x2x512 .f32) (ab : FVec Ideal S1x512x4096 .f32) (acc : FVec Ideal S2x4096 .f32)
    (r : Fin 2) (n : Fin 4096) :
    k0_pay3 (F := Ideal) gb ab acc (ix2 r n)
      = acc (ix2 r n) + ∑ j : Fin 512, gb (ix3 (0 : Fin 1) r j) * ab (ix3 (0 : Fin 1) j n) :=
  chunk_apply dot_S2x512_S512x4096_S2x4096_1_0_0_1_n_n rfl rfl rfl rfl rfl rfl gb ab acc _ _ _ _ r n

theorem pay4_apply (gb : FVec Ideal S1x2x512 .f32) (ab : FVec Ideal S1x512x4096 .f32) (acc : FVec Ideal S2x4096 .f32)
    (r : Fin 2) (n : Fin 4096) :
    k0_pay4 (F := Ideal) gb ab acc (ix2 r n)
      = acc (ix2 r n) + ∑ j : Fin 512, gb (ix3 (0 : Fin 1) r j) * ab (ix3 (0 : Fin 1) j n) :=
  chunk_apply dot_S2x512_S512x4096_S2x4096_1_0_0_1_n_n rfl rfl rfl rfl rfl rfl gb ab acc _ _ _ _ r n

/-- The reset value is the real number zero. -/
theorem pay2_apply (j : S2x4096.Idx) : k0_pay2 (F := Ideal) j = 0 := by
  unfold k0_pay2
  rw [shapeCast_self]
  exact Ideal.ofBits_zero_f32

/-- The output block is the accumulator under a leading unit axis. -/
theorem pay1_apply (v : FVec Ideal S2x4096 .f32) (u : Fin 1) (r : Fin 2) (n : Fin 4096) :
    k0_pay1 (F := Ideal) v (ix3 u r n) = v (ix2 r n) := by
  unfold k0_pay1
  exact shapeCast_ab_1ab_apply v _ u r n

/-- The halves of the blocks, read at an entry. -/
theorem gLo_apply (x0 : FVec Ideal S1x2x1024 .f32) (u : Fin 1) (r : Fin 2) (j : Fin 512) :
    gLo (F := Ideal) x0 (ix3 u r j) = x0 (ix3 (0 : Fin 1) r (⟨j.val, by omega⟩ : Fin 1024)) :=
  congrArg x0 (funext fun a => Fin.ext (by
    match a with
    | ⟨0, _⟩ => show 0 + 1 * u.val = 0; omega
    | ⟨1, _⟩ => show 0 + 1 * r.val = r.val; omega
    | ⟨2, _⟩ => show 0 + 1 * j.val = j.val; omega))

theorem gHi_apply (x0 : FVec Ideal S1x2x1024 .f32) (u : Fin 1) (r : Fin 2) (j : Fin 512) :
    gHi (F := Ideal) x0 (ix3 u r j) = x0 (ix3 (0 : Fin 1) r (⟨512 + j.val, by omega⟩ : Fin 1024)) :=
  congrArg x0 (funext fun a => Fin.ext (by
    match a with
    | ⟨0, _⟩ => show 0 + 1 * u.val = 0; omega
    | ⟨1, _⟩ => show 0 + 1 * r.val = r.val; omega
    | ⟨2, _⟩ => show 512 + 1 * j.val = 512 + j.val; omega))

theorem aLo_apply (x1 : FVec Ideal S1x1024x4096 .f32) (u : Fin 1) (j : Fin 512) (n : Fin 4096) :
    aLo (F := Ideal) x1 (ix3 u j n) = x1 (ix3 (0 : Fin 1) (⟨j.val, by omega⟩ : Fin 1024) n) :=
  congrArg x1 (funext fun a => Fin.ext (by
    match a with
    | ⟨0, _⟩ => show 0 + 1 * u.val = 0; omega
    | ⟨1, _⟩ => show 0 + 1 * j.val = j.val; omega
    | ⟨2, _⟩ => show 0 + 1 * n.val = n.val; omega))

theorem aHi_apply (x1 : FVec Ideal S1x1024x4096 .f32) (u : Fin 1) (j : Fin 512) (n : Fin 4096) :
    aHi (F := Ideal) x1 (ix3 u j n) = x1 (ix3 (0 : Fin 1) (⟨512 + j.val, by omega⟩ : Fin 1024) n) :=
  congrArg x1 (funext fun a => Fin.ext (by
    match a with
    | ⟨0, _⟩ => show 0 + 1 * u.val = 0; omega
    | ⟨1, _⟩ => show 512 + 1 * j.val = 512 + j.val; omega
    | ⟨2, _⟩ => show 0 + 1 * n.val = n.val; omega))

/-- A point's step at an entry: the entry before, then the first half's sum, then the second half's. -/
theorem step_apply (x0 : FVec Ideal S1x2x1024 .f32) (x1 : FVec Ideal S1x1024x4096 .f32) (acc : FVec Ideal S2x4096 .f32)
    (r : Fin 2) (n : Fin 4096) :
    step (F := Ideal) x0 x1 acc (ix2 r n)
      = acc (ix2 r n)
        + (∑ j : Fin 512, x0 (ix3 (0 : Fin 1) r (⟨j.val, by omega⟩ : Fin 1024)) * x1 (ix3 (0 : Fin 1) (⟨j.val, by omega⟩ : Fin 1024) n))
        + ∑ j : Fin 512, x0 (ix3 (0 : Fin 1) r (⟨512 + j.val, by omega⟩ : Fin 1024)) * x1 (ix3 (0 : Fin 1) (⟨512 + j.val, by omega⟩ : Fin 1024) n) := by
  unfold step
  rw [pay4_apply, pay3_apply]
  refine congrArg₂ (· + ·) (congrArg (acc (ix2 r n) + ·) (Finset.sum_congr rfl fun j _ => ?_)) (Finset.sum_congr rfl fun j _ => ?_)
  · rw [gLo_apply, aLo_apply]
  · rw [gHi_apply, aHi_apply]

end Cert.KernelIdeal.Pay

end
-- ==== Proof.Spec.lean ====
/-
  The mathematics of the certificate, free of any program.

  For a batch of eight 2 × 4096 matrices `g` and eight 4096 × 4096 matrices `a`, entry (b, r, n) of the batched
  product is the sum over the 4096 contraction coordinates k of g (b, r, k) · a (b, k, n). The kernel does not form
  this sum at once: it walks the contraction axis in chunks of 512 coordinates, adding each chunk's partial product
  to a running accumulator that starts at zero. `part` is the sum of the first K terms; a chunk extends it by 512
  terms (`part_add_chunk`), two chunks by 1024 (`part_step`), and the sum of all 4096 terms is the entry of the
  product (`part_full`). Only associativity of addition on the extended reals is used: nothing is cancelled or
  distributed, so no finiteness of the entries is needed.
-/
import Idealize.ShloMosaic.Lib.ValueIdx
import Idealize.ShloMosaic.PureOps.Ideal.Laws

noncomputable section

namespace Cert.AffineProduct

open Idealize.ShloMosaic Idealize.ShloMosaic.ValueIdx

/-- The batch of left factors' shape, and the batch of right factors'. -/
abbrev SG : Shape := ⟨3, ![8, 2, 4096]⟩
abbrev SA : Shape := ⟨3, ![8, 4096, 4096]⟩

/-- A natural number as a contraction coordinate (reduced modulo the axis' extent, so that it is total). -/
def kx (k : ℕ) : Fin 4096 := ⟨k % 4096, Nat.mod_lt _ (by norm_num)⟩

/-- The batch a grid point works on: the grid is 8 batches × 4 blocks of the contraction axis, batch-major. -/
def bx (t : ℕ) : Fin 8 := ⟨t / 4 % 8, Nat.mod_lt _ (by norm_num)⟩

theorem kx_val {k : ℕ} (h : k < 4096) : (kx k).val = k := Nat.mod_eq_of_lt h

theorem kx_fin (k : Fin 4096) : kx k.val = k := Fin.ext (Nat.mod_eq_of_lt k.isLt)

theorem bx_val {t : ℕ} (h : t < 32) : (bx t).val = t / 4 := Nat.mod_eq_of_lt (by omega)

/-- The k-th term of entry (b, r, n) of the product. -/
def term (g : SG.Idx → EReal) (a : SA.Idx → EReal) (b : Fin 8) (r : Fin 2) (n : Fin 4096) (k : ℕ) : EReal :=
  g (ix3 b r (kx k)) * a (ix3 b (kx k) n)

/-- The sum of the first `K` terms of entry (b, r, n). -/
def part (g : SG.Idx → EReal) (a : SA.Idx → EReal) (b : Fin 8) (r : Fin 2) (n : Fin 4096) (K : ℕ) : EReal :=
  ∑ k ∈ Finset.range K, term g a b r n k

variable (g : SG.Idx → EReal) (a : SA.Idx → EReal) (b : Fin 8) (r : Fin 2) (n : Fin 4096)

theorem part_zero : part g a b r n 0 = 0 := by
  unfold part; rw [Finset.range_zero, Finset.sum_empty]

/-- A chunk of 512 further terms. -/
theorem part_add_chunk (K : ℕ) :
    part g a b r n (K + 512) = part g a b r n K + ∑ j : Fin 512, term g a b r n (K + j.val) := by
  unfold part
  rw [Finset.sum_range_add, Finset.sum_range (fun x => term g a b r n (K + x))]

/-- One grid point: the accumulator, then the point's two chunks, added in the kernel's order. -/
theorem part_step (K : ℕ) (acc lo hi : EReal) (hacc : acc = part g a b r n K)
    (hlo : lo = ∑ j : Fin 512, term g a b r n (K + j.val))
    (hhi : hi = ∑ j : Fin 512, term g a b r n (K + 512 + j.val)) :
    acc + lo + hi = part g a b r n (K + 1024) := by
  rw [show K + 1024 = K + 512 + 512 from rfl, part_add_chunk, part_add_chunk, hacc, hlo, hhi]

/-- All 4096 terms: the entry of the product. -/
theorem part_full : part g a b r n 4096 = ∑ k : Fin 4096, g (ix3 b r k) * a (ix3 b k n) := by
  unfold part
  rw [Finset.sum_range]
  refine Finset.sum_congr rfl fun k _ => ?_
  unfold term
  rw [kx_fin]

end Cert.AffineProduct

end
-- ==== Proof.Acc.lean ====
/-
  The accumulator after every grid point.

  The grid walks the 8 batches and, inside a batch, the 4 blocks of 1024 contraction coordinates; point t works on
  batch t / 4 and block t % 4. By induction on the point: after point t entry (r, n) of the accumulator — and of the
  output block, which is a copy of it — is the sum of the first 1024 · (t % 4 + 1) terms of entry (t / 4, r, n) of the
  product. At a batch's first block the accumulator restarts from zero (the empty sum); at a later block it continues
  from what the point before left, which belongs to the same batch.
-/
import proofs.«128056_j84945863180964_2_alg».proof.Proof.Pay
import proofs.«128056_j84945863180964_2_alg».proof.Proof.Spec

noncomputable section

namespace Cert.KernelIdeal.Acc

open Idealize.ShloMosaic Idealize.ShloMosaic.TcCoe Idealize.ShloMosaic.ValueIdx Idealize.SL.Sem
open Cert.KernelIdeal Cert.KernelIdeal.Gen Cert.KernelIdeal.Body Cert.KernelIdeal.Pay Cert.AffineProduct

/-- One point, in terms of the product's terms: if the point's blocks are block `kb` of batch `b` and the accumulator's
    entry is the sum of the terms before that block, the step leaves the sum through the end of the block. -/
theorem step_part (g : SG.Idx → EReal) (a : SA.Idx → EReal)
    (x0 : FVec Ideal S1x2x1024 .f32) (x1 : FVec Ideal S1x1024x4096 .f32) (acc : FVec Ideal S2x4096 .f32)
    (b : Fin 8) (kb : ℕ) (r : Fin 2) (nn : Fin 4096)
    (hg : ∀ j : Fin 1024, x0 (ix3 (0 : Fin 1) r j) = g (ix3 b r (kx (1024 * kb + j.val))))
    (ha : ∀ j : Fin 1024, x1 (ix3 (0 : Fin 1) j nn) = a (ix3 b (kx (1024 * kb + j.val)) nn))
    (hacc : acc (ix2 r nn) = part g a b r nn (1024 * kb)) :
    step (F := Ideal) x0 x1 acc (ix2 r nn) = part g a b r nn (1024 * (kb + 1)) := by
  rw [step_apply, show 1024 * (kb + 1) = 1024 * kb + 1024 from by omega]
  refine part_step g a b r nn (1024 * kb) _ _ _ hacc (Finset.sum_congr rfl fun j _ => ?_)
    (Finset.sum_congr rfl fun j _ => ?_)
  · rw [hg, ha]; rfl
  · rw [hg, ha, show 1024 * kb + (512 + j.val) = 1024 * kb + 512 + j.val from by omega]; rfl

variable (m : (ℓ : Loc nD τ sig) → Buf (Elt Ideal) ℓ) (c : Dev nD)

/-- The accumulator after point `n`. -/
theorem scratch_after (g : SG.Idx → EReal) (a : SA.Idx → EReal)
    (hg : ∀ (t : Fin cfg0.N) (r : Fin 2) (j : Fin 1024),
      (iblk m c 0 t : FVec Ideal S1x2x1024 .f32) (ix3 (0 : Fin 1) r j) = g (ix3 (bx t.val) r (kx (1024 * (t.val % 4) + j.val))))
    (ha : ∀ (t : Fin cfg0.N) (j : Fin 1024) (nn : Fin 4096),
      (iblk m c 1 t : FVec Ideal S1x1024x4096 .f32) (ix3 (0 : Fin 1) j nn) = a (ix3 (bx t.val) (kx (1024 * (t.val % 4) + j.val)) nn)) :
    ∀ (n : ℕ) (h : n < cfg0.N) (r : Fin 2) (nn : Fin 4096),
      (outsAt0 m c n h).2 (ix2 r nn) = part g a (bx n) r nn (1024 * (n % 4 + 1)) := by
  intro n
  induction n with
  | zero =>
    intro h r nn
    rw [outsAt0_A m c ⟨0, h⟩ rfl]
    dsimp only
    rw [sout_A]
    refine step_part g a _ _ _ (bx 0) (0 % 4) r nn (fun j => hg ⟨0, h⟩ r j) (fun j => ha ⟨0, h⟩ j nn) ?_
    rw [pay2_apply]; exact (part_zero g a _ r nn).symm
  | succ n ih =>
    intro h r nn
    by_cases h0 : (n + 1) % 4 = 0
    · rw [outsAt0_A m c ⟨n + 1, h⟩ h0]
      dsimp only
      rw [sout_A]
      refine step_part g a _ _ _ (bx (n + 1)) ((n + 1) % 4) r nn (fun j => hg ⟨n + 1, h⟩ r j) (fun j => ha ⟨n + 1, h⟩ j nn) ?_
      rw [pay2_apply, h0]; exact (part_zero g a _ r nn).symm
    · rw [outsAt0_B m c ⟨n + 1, h⟩ h0]
      dsimp only
      rw [sout_B]
      refine step_part g a _ _ _ (bx (n + 1)) ((n + 1) % 4) r nn (fun j => hg ⟨n + 1, h⟩ r j) (fun j => ha ⟨n + 1, h⟩ j nn) ?_
      have e := ih (Nat.lt_of_succ_lt h) r nn
      have hb : bx n = bx (n + 1) := Fin.ext (by show n / 4 % 8 = (n + 1) / 4 % 8; omega)
      have hk : n % 4 + 1 = (n + 1) % 4 := by omega
      rw [hb, hk] at e
      exact e

/-- The output block after point `n` is a copy of the accumulator. -/
theorem out_after (g : SG.Idx → EReal) (a : SA.Idx → EReal)
    (hg : ∀ (t : Fin cfg0.N) (r : Fin 2) (j : Fin 1024),
      (iblk m c 0 t : FVec Ideal S1x2x1024 .f32) (ix3 (0 : Fin 1) r j) = g (ix3 (bx t.val) r (kx (1024 * (t.val % 4) + j.val))))
    (ha : ∀ (t : Fin cfg0.N) (j : Fin 1024) (nn : Fin 4096),
      (iblk m c 1 t : FVec Ideal S1x1024x4096 .f32) (ix3 (0 : Fin 1) j nn) = a (ix3 (bx t.val) (kx (1024 * (t.val % 4) + j.val)) nn))
    (n : ℕ) (h : n < cfg0.N) (u : Fin 1) (r : Fin 2) (nn : Fin 4096) :
    (outsAt0 m c n h).1 (ix3 u r nn) = part g a (bx n) r nn (1024 * (n % 4 + 1)) := by
  have hs := scratch_after m c g a hg ha n h r nn
  by_cases h0 : n % 4 = 0
  · rw [outsAt0_A m c ⟨n, h⟩ h0] at hs ⊢
    dsimp only at hs ⊢
    rw [out_A, pay1_apply]
    rw [sout_A] at hs
    exact hs
  · rw [outsAt0_B m c ⟨n, h⟩ h0] at hs ⊢
    dsimp only at hs ⊢
    rw [out_B, pay1_apply]
    rw [sout_B] at hs
    exact hs

end Cert.KernelIdeal.Acc

end
-- ==== Proof.Product.lean ====
/-
  The array the kernel's region leaves: the batched product.

  Block t of the window over `g` (the reshaped grid) is rows (t / 4, ·, 1024 · (t % 4) + ·) of it, block t of the window
  over `aff` is rows (t / 4, 1024 · (t % 4) + ·, ·): so the accumulator after the last block of a batch (t % 4 = 3) holds
  all 4096 terms of that batch's entries. The output window's block index is (t / 4, 0, 0); it is written back exactly
  at those last points, and the eight blocks written back tile the 8 × 2 × 4096 result. Hence entry (b, r, n) of the
  result is the sum over k of g (b, r, k) · aff (b, k, n).
-/
import proofs.«128056_j84945863180964_2_alg».proof.Proof.Acc

noncomputable section

namespace Cert.KernelIdeal.Product

open Idealize.ShloMosaic Idealize.ShloMosaic.TcCoe Idealize.ShloMosaic.ValueIdx Idealize.SL.Sem
open Idealize.ShloMosaic.Pipeline (Dat)
open Cert.KernelIdeal Cert.KernelIdeal.Gen Cert.KernelIdeal.Acc Cert.AffineProduct

variable (m : (ℓ : Loc nD τ sig) → Buf (Elt Ideal) ℓ) (ρ : Dev nD → PrngReg)

/-- The printed index maps over the grid: point t is batch t / 4, contraction block t % 4. -/
theorem idx_facts : ∀ t : Fin cfg0.N,
    win0_0.index t (0 : Fin 3) = t.val / 4 ∧ win0_0.index t (1 : Fin 3) = 0 ∧ win0_0.index t (2 : Fin 3) = t.val % 4
    ∧ win0_1.index t (0 : Fin 3) = t.val / 4 ∧ win0_1.index t (1 : Fin 3) = t.val % 4 ∧ win0_1.index t (2 : Fin 3) = 0
    ∧ win0_2.index t (0 : Fin 3) = t.val / 4 ∧ win0_2.index t (1 : Fin 3) = 0 ∧ win0_2.index t (2 : Fin 3) = 0 :=
  (by decide +kernel : ∀ t : Fin grid0.N,
    win0_0.index t (0 : Fin 3) = t.val / 4 ∧ win0_0.index t (1 : Fin 3) = 0 ∧ win0_0.index t (2 : Fin 3) = t.val % 4
    ∧ win0_1.index t (0 : Fin 3) = t.val / 4 ∧ win0_1.index t (1 : Fin 3) = t.val % 4 ∧ win0_1.index t (2 : Fin 3) = 0
    ∧ win0_2.index t (0 : Fin 3) = t.val / 4 ∧ win0_2.index t (1 : Fin 3) = 0 ∧ win0_2.index t (2 : Fin 3) = 0)

/-- The left factors and the right factors as the region finds them. -/
abbrev gArr (c : Dev nD) : SG.Idx → EReal := V m c main_v1
abbrev aArr (c : Dev nD) : SA.Idx → EReal := V m c main_arg0

/-- A block of the window over `g`, read at an entry. -/
theorem gblk_apply (c : Dev nD) (t : Fin cfg0.N) (r : Fin 2) (j : Fin 1024) :
    (iblk m c 0 t : FVec Ideal S1x2x1024 .f32) (ix3 (0 : Fin 1) r j)
      = gArr m c (ix3 (bx t.val) r (kx (1024 * (t.val % 4) + j.val))) := by
  obtain ⟨e0, e1, e2, -⟩ := idx_facts t
  have ht : t.val < 32 := lt_of_lt_of_eq t.isLt N_0
  unfold iblk
  rw [View.read_apply]
  show V m c main_v1 (((cfg0.win 0).blk t).view.emb (ix3 (0 : Fin 1) r j)) = V m c main_v1 _
  refine congrArg (V m c main_v1) (funext fun a => Fin.ext ?_)
  match a with
  | ⟨0, _⟩ => show win0_0.index t (0 : Fin 3) * 1 + 1 * 0 = (bx t.val).val; rw [e0, bx_val ht]; omega
  | ⟨1, _⟩ => show win0_0.index t (1 : Fin 3) * 2 + 1 * r.val = r.val; rw [e1]; omega
  | ⟨2, _⟩ =>
    show win0_0.index t (2 : Fin 3) * 1024 + 1 * j.val = (kx (1024 * (t.val % 4) + j.val)).val
    rw [e2, kx_val (by have := j.isLt; omega)]; omega

/-- A block of the window over `aff`, read at an entry. -/
theorem ablk_apply (c : Dev nD) (t : Fin cfg0.N) (j : Fin 1024) (nn : Fin 4096) :
    (iblk m c 1 t : FVec Ideal S1x1024x4096 .f32) (ix3 (0 : Fin 1) j nn)
      = aArr m c (ix3 (bx t.val) (kx (1024 * (t.val % 4) + j.val)) nn) := by
  obtain ⟨-, -, -, e0, e1, e2, -⟩ := idx_facts t
  have ht : t.val < 32 := lt_of_lt_of_eq t.isLt N_0
  unfold iblk
  rw [View.read_apply]
  show V m c main_arg0 (((cfg0.win 1).blk t).view.emb (ix3 (0 : Fin 1) j nn)) = V m c main_arg0 _
  refine congrArg (V m c main_arg0) (funext fun a => Fin.ext ?_)
  match a with
  | ⟨0, _⟩ => show win0_1.index t (0 : Fin 3) * 1 + 1 * 0 = (bx t.val).val; rw [e0, bx_val ht]; omega
  | ⟨1, _⟩ =>
    show win0_1.index t (1 : Fin 3) * 1024 + 1 * j.val = (kx (1024 * (t.val % 4) + j.val)).val
    rw [e1, kx_val (by have := j.isLt; omega)]; omega
  | ⟨2, _⟩ => show win0_1.index t (2 : Fin 3) * 4096 + 1 * nn.val = nn.val; rw [e2]; omega

/-- The batched product, entry by entry, as the sum of all 4096 terms. -/
def prod (g : SG.Idx → EReal) (a : SA.Idx → EReal) : SG.Idx → EReal := fun i =>
  part g a ⟨(i 0).val, (i 0).isLt⟩ ⟨(i 1).val, (i 1).isLt⟩ ⟨(i 2).val, (i 2).isLt⟩ 4096

/-- What a last point of a batch writes back is its block of the product. -/
theorem flushed_eq (c : Dev nD) (t : Fin cfg0.N) (hf : (cfg0.win 2).flush t = true) :
    (dats m 0 c).flushed 2 t = ((cfg0.win 2).blk t).view.read (Elt Ideal) (prod (gArr m c) (aArr m c)) := by
  have h3 : t.val % 4 = 3 := (flush0_2 t).mp hf
  have ht : t.val < 32 := lt_of_lt_of_eq t.isLt N_0
  obtain ⟨-, -, -, -, -, -, e0, e1, e2⟩ := idx_facts t
  show (cfg0.win 2).cut (grid0.coords t) ((dats m 0 c).after 2 t) = _
  rw [after0_2]
  funext y
  obtain ⟨u, r, nn, rfl⟩ : ∃ (u : Fin 1) (r : Fin 2) (nn : Fin 4096), y = ix3 u r nn := ⟨y 0, y 1, y 2, eq_ix3 y⟩
  show (outsAt0 m c t.val t.isLt).1 (ix3 u r nn) = prod (gArr m c) (aArr m c) (((cfg0.win 2).blk t).view.emb (ix3 u r nn))
  rw [out_after m c (gArr m c) (aArr m c) (gblk_apply m c) (ablk_apply m c) t.val t.isLt u r nn, h3]
  unfold prod
  have hb : (bx t.val) = (⟨((((cfg0.win 2).blk t).view.emb (ix3 u r nn)) 0).val, ((((cfg0.win 2).blk t).view.emb (ix3 u r nn)) 0).isLt⟩ : Fin 8) :=
    Fin.ext (by
      show (bx t.val).val = win0_2.index t (0 : Fin 3) * 1 + 1 * u.val
      rw [e0, bx_val ht]; omega)
  have hr : r = (⟨((((cfg0.win 2).blk t).view.emb (ix3 u r nn)) 1).val, ((((cfg0.win 2).blk t).view.emb (ix3 u r nn)) 1).isLt⟩ : Fin 2) :=
    Fin.ext (by
      show r.val = win0_2.index t (1 : Fin 3) * 2 + 1 * r.val
      rw [e1]; omega)
  have hn : nn = (⟨((((cfg0.win 2).blk t).view.emb (ix3 u r nn)) 2).val, ((((cfg0.win 2).blk t).view.emb (ix3 u r nn)) 2).isLt⟩ : Fin 4096) :=
    Fin.ext (by
      show nn.val = win0_2.index t (2 : Fin 3) * 4096 + 1 * nn.val
      rw [e2]; omega)
  rw [← hb, ← hr, ← hn]

/-- An index of the result is in point t's block iff each coordinate is in the block's range on its axis. -/
theorem mem_blk (t : Fin cfg0.N) (i : S8x2x4096.Idx) :
    i ∈ ((cfg0.win 2).blk t).view.set ↔ ∀ a : Fin 3, win0_2.index t a * S1x2x4096.size a ≤ (i a).val ∧ (i a).val < win0_2.index t a * S1x2x4096.size a + S1x2x4096.size a := by
  show i ∈ ((View.whole main_v2).slice (win0_2.rect t)).set ↔ _
  rw [View.set_slice_whole, Rect.mem_set_unit]
  exact Iff.rfl

/-- THE RESULT of the region: the batched product of `g` and `aff` as the region finds them. -/
theorem final (c : Dev nD) : (dats m 0 c).arrAt 2 cfg0.N = prod (gArr m c) (aArr m c) :=
  (dats m 0 c).arrAt_eq_of_cover 2 (prod (gArr m c) (aArr m c)) (flushed_eq m c) fun i => by
    have hi0 : (i 0).val < 8 := (i 0).isLt
    have hi1 : (i 1).val < 2 := (i 1).isLt
    have hi2 : (i 2).val < 4096 := (i 2).isLt
    have hN : cfg0.N = 32 := N_0
    let t : Fin cfg0.N := ⟨4 * (i 0).val + 3, by rw [hN]; omega⟩
    have htv : t.val = 4 * (i 0).val + 3 := rfl
    obtain ⟨-, -, -, -, -, -, e0, e1, e2⟩ := idx_facts t
    refine ⟨t, (flush0_2 t).mpr (by rw [htv]; omega), ?_⟩
    rw [mem_blk]
    intro a
    match a with
    | ⟨0, _⟩ => show win0_2.index t (0 : Fin 3) * 1 ≤ (i 0).val ∧ (i 0).val < win0_2.index t (0 : Fin 3) * 1 + 1; rw [e0, htv]; omega
    | ⟨1, _⟩ => show win0_2.index t (1 : Fin 3) * 2 ≤ (i 1).val ∧ (i 1).val < win0_2.index t (1 : Fin 3) * 2 + 2; rw [e1]; omega
    | ⟨2, _⟩ => show win0_2.index t (2 : Fin 3) * 4096 ≤ (i 2).val ∧ (i 2).val < win0_2.index t (2 : Fin 3) * 4096 + 4096; rw [e2]; omega

end Cert.KernelIdeal.Product

end
-- ==== Proof.Tail.lean ====
/-
  What both programs do to the batched product, as one function.

  After the product `coord` (8 × 2 × 4096, i.e. two coordinate images of 64 × 64 per batch) both programs apply the
  same host operations: cut each 64 × 64 image into the 15 × 15 windows of 8 × 8 pixels at stride 4 (two gathers, the
  row indices and the column indices being 4·i + j, wrapped if negative), flatten each window to 64 values, subtract
  the window's mean, square, sum everything and divide by the number of values, 230400. `tail` is that chain as a
  function of the product. Nothing in the certificate looks inside it: the two programs feed it equal arrays.
-/
import proofs.«128056_j84945863180964_2_alg».proof.KernelIdeal

noncomputable section

namespace Cert.KernelIdeal.Tail

open Idealize.ShloMosaic Idealize.SL.Sem
open Cert.KernelIdeal Cert.KernelIdeal.Facts₀

variable {F : FTy → Type} [FloatOps F] [Facts]

/-- The window offsets 4·i + j (i < 15, j < 8), wrapped into range if negative, as gather indices. -/
def windowIdx : IVec S15x8x1 32 :=
  let starts : IVec S15 32 := muli (iotaInDim S15 32 0) (broadcastInDim S15 ![] bcast_S_S15 (constantI S_ 32 4#32))
  let offs : IVec S15x8 32 :=
    addi (broadcastInDim S15x8 ![0, 1] bcast_S15x1_S15x8_0_1 (broadcastInDim S15x1 ![0] bcast_S15_S15x1_0 starts))
      (broadcastInDim S15x8 ![0, 1] bcast_S1x8_S15x8_0_1 (broadcastInDim S1x8 ![1] bcast_S8_S1x8_1 (iotaInDim S8 32 0)))
  broadcastInDim S15x8x1 ![0, 1] bcast_S15x8_S15x8x1_0_1
    (select (cmpi .slt offs (broadcastInDim S15x8 ![] bcast_S_S15x8 (constantI S_ 32 0#32)))
      (addi offs (broadcastInDim S15x8 ![] bcast_S_S15x8 (constantI S_ 32 64#32))) offs)

/-- The mean squared distance of every window's pixels to the window's mean, from the product. -/
def tail (coord : FVec F S8x2x4096 .f32) : FVec F S_ .f32 :=
  let img : FVec F S8x2x64x64 .f32 := shapeCast S8x2x64x64 coord shapeCasts_S8x2x4096_S8x2x64x64
  let rows : FVec F S8x2x15x8x64 .f32 := Host.gather gather_S8x2x64x64_S15x8x1_S8x2x15x8x64_014_2_n_n_2_2_82164 img windowIdx
  let wins : FVec F S8x2x15x8x15x8 .f32 := Host.gather gather_S8x2x15x8x64_S15x8x1_S8x2x15x8x15x8_0123_4_n_n_4_2_821581 rows windowIdx
  let patches : FVec F S8x2x225x64 .f32 :=
    shapeCast S8x2x225x64 (transpose S8x2x15x15x8x8 [0, 1, 2, 4, 3, 5] wins transposes_S8x2x15x8x15x8_S8x2x15x15x8x8_0_1_2_4_3_5)
      shapeCasts_S8x2x15x15x8x8_S8x2x225x64
  let mean : FVec F S8x2x225x1 .f32 :=
    Host.divf (broadcastInDim S8x2x225x1 ![0, 1, 2] bcast_S8x2x225_S8x2x225x1_0_1_2
        (Host.reduceAdd patches (constant (F := F) S_ .f32 0x00000000#32) reducesTo_S8x2x225x64_S8x2x225_d3 h_S_))
      (broadcastInDim S8x2x225x1 ![] bcast_S_S8x2x225x1 (constant (F := F) S_ .f32 0x42800000#32))
  let dev : FVec F S8x2x225x64 .f32 := subf patches (broadcastInDim S8x2x225x64 ![0, 1, 2, 3] bcast_S8x2x225x1_S8x2x225x64_0_1_2_3 mean)
  Host.divf (Host.reduceAdd (mulf dev dev) (constant (F := F) S_ .f32 0x00000000#32) reducesTo_S8x2x225x64_S_d0_1_2_3 h_S_)
    (constant (F := F) S_ .f32 0x48610000#32)

end Cert.KernelIdeal.Tail

end
-- ==== Proof.Result.lean ====
/-
  The kernel's program, run and read: its result is the shared tail of the batched product.

  Before the region the program transposes and reshapes `grid` into the left factors `g` (8 × 2 × 4096); the region
  leaves the batched product of `g` and `aff` in its output array; the operations after the region are the shared
  tail, applied to that array. So the scalar the program returns is `tail` of the product, and its two arguments are
  never written.
-/
import proofs.«128056_j84945863180964_2_alg».proof.Proof.Product
import proofs.«128056_j84945863180964_2_alg».proof.Proof.Tail
import Idealize.ShloMosaic.Lib.StableHlo.Run

noncomputable section

namespace Cert.KernelIdeal.Result

open Idealize.ShloMosaic Idealize.ShloMosaic.TcCoe Idealize.SL.Sem Idealize.ShloMosaic.StableHlo
open Idealize.ShloMosaic.Pipeline (Dat)
open Cert.KernelIdeal Cert.KernelIdeal.Gen Cert.KernelIdeal.Product Cert.KernelIdeal.Tail Cert.AffineProduct

variable (m : (ℓ : Loc nD τ sig) → Buf (Elt Ideal) ℓ) (ρ : Dev nD → PrngReg)

/-- The left factors the region finds: `grid` with its coordinate axis moved forward and its image axes merged. -/
theorem gArr_eq (c : Dev nD) :
    gArr m c = shapeCast S8x2x4096 (transpose S8x2x64x64 [0, 3, 1, 2] (m ((c : Thread nD τ).loc main_arg1))
      Facts₀.transposes_S8x64x64x2_S8x2x64x64_0_3_1_2) Facts₀.shapeCasts_S8x2x64x64_S8x2x4096 := by
  show StableHlo.after hostOps0 (fun b => m (c, b)) (Proc.devRef .tc main_v1) = _
  after_results
  rfl

/-- The right factors the region finds: `aff` as launched. -/
theorem aArr_eq (c : Dev nD) : aArr m c = m ((c : Thread nD τ).loc main_arg0) := V_main_arg0 m c

set_option maxRecDepth 8192 in
set_option maxHeartbeats 1000000 in
/-- The operations after the region compute the shared tail of the region's output array. -/
theorem tail_eq (c : Dev nD) :
    Pipeline.afterTail₀ cfgs (dats m) 0 (V0 m) [hostOps1] c main_v46
      = tail (F := Ideal) (Pipeline.withArrays spec0 c (V0 m c) (fun w => (dats m 0 c).arrAt w cfg0.N) (Proc.devRef .tc main_v2)) := by
  unfold Pipeline.afterTail₀
  simp only [hostOps1, List.flatten_cons, List.flatten_nil, List.append_nil]
  after_results_simp
  rfl

/-- The kernel's program returns the tail of the batched product. -/
def result (c : Dev nD) : Buf (Elt Ideal) ((c : Thread nD τ).loc main_v46) :=
  tail (F := Ideal) (prod (gArr m c) (aArr m c))

/-- Every weakly fair execution terminates with the result at `result` and both arguments as launched. -/
theorem run : θ_run defs (onTc (τ := τ) (main (F := Ideal))) ⟨m, fun _ => 0, ρ⟩ fun r => ∀ c : Dev nD,
      r.2.mem ((c : Thread nD τ).loc main_v46) = result m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c =>
    ⟨((h c).2 main_v46 (Pipeline.mem_restRefs_of main_v46 (by decide) (by decide))).trans
        ((tail_eq m c).trans (congrArg (tail (F := Ideal))
          ((Pipeline.withArrays_arr spec0 launch0.win.arr_inj c _ _ 2).trans (final m c)))),
      ((h c).1 1).trans (((dats m 0 c).arrAt_in 1 rfl _).trans ((A_eq m c 1).trans (V_main_arg0 m c))),
      ((h c).2 main_arg1 (Pipeline.mem_restRefs_of main_arg1 (by decide) (by decide))).trans (W_main_arg1 m (dats m) c)⟩)
    (run_main m ρ)

end Cert.KernelIdeal.Result

end
-- ==== Proof.RefValue.lean ====
/-
  The reference's program, read: its result is the shared tail of the host's batched product.

  The reference transposes and reshapes `grid` as the kernel's program does, multiplies by `aff` with one host
  `dot_general` (batch axis 0, contracting the last axis of the left factor with the middle axis of the right), and
  applies the shared tail. On the extended reals the `dot_general`'s entry (b, r, n) is the sum over k of
  g (b, r, k) · aff (b, k, n): the same product the kernel accumulates block by block.
-/
import proofs.«128056_j84945863180964_2_alg».proof.Proof.Product
import proofs.«128056_j84945863180964_2_alg».proof.Proof.Tail
import proofs.«128056_j84945863180964_2_alg».proof.Proof.Gen.ReferenceIdeal.Read

noncomputable section

namespace Cert.ReferenceIdeal.RefValue

open Idealize.ShloMosaic Idealize.ShloMosaic.TcCoe Idealize.ShloMosaic.ValueIdx Idealize.SL.Sem
open Cert.AffineProduct

variable (m' : (ℓ : Loc Cert.ReferenceIdeal.nD Cert.ReferenceIdeal.τ Cert.ReferenceIdeal.sig) → Buf (Elt Ideal) ℓ)

set_option maxRecDepth 8192 in
set_option maxHeartbeats 1000000 in
/-- The reference's result is the shared tail of its `dot_general`. -/
theorem res_eq_tail (c : Dev Cert.ReferenceIdeal.nD) :
    Cert.ReferenceIdeal.Value.res_main_v46 (F := Ideal) m' c
      = Cert.KernelIdeal.Tail.tail (F := Ideal)
          (Cert.ReferenceIdeal.Read.val_main_v2 (F := Ideal)
            (m' ((c.tc : Thread Cert.ReferenceIdeal.nD Cert.ReferenceIdeal.τ).loc Cert.ReferenceIdeal.main_arg0))
            (m' ((c.tc : Thread Cert.ReferenceIdeal.nD Cert.ReferenceIdeal.τ).loc Cert.ReferenceIdeal.main_arg1))) := by
  unfold Cert.ReferenceIdeal.Value.res_main_v46
  rfl

/-- The host's batched `dot_general` is the product, entry by entry. -/
theorem dot_eq_prod (x0 : (⟨Cert.ReferenceIdeal.S8x4096x4096, .f32⟩ : BufTy).Contents (Elt Ideal))
    (x1 : (⟨Cert.ReferenceIdeal.S8x64x64x2, .f32⟩ : BufTy).Contents (Elt Ideal)) :
    Cert.ReferenceIdeal.Read.val_main_v2 (F := Ideal) x0 x1
      = Cert.KernelIdeal.Product.prod (Cert.ReferenceIdeal.Read.val_main_v1 (F := Ideal) x1) x0 := by
  funext i
  rw [Cert.ReferenceIdeal.Read.val_main_v2_apply]
  unfold Cert.KernelIdeal.Product.prod
  rw [part_full]
  refine Finset.sum_congr rfl fun k _ => ?_
  have el : Cert.ReferenceIdeal.Read.lidx_main_v2 i k = ix3 (⟨(i 0).val, (i 0).isLt⟩ : Fin 8) (⟨(i 1).val, (i 1).isLt⟩ : Fin 2) k :=
    funext fun a => Fin.ext (by match a with | ⟨0, _⟩ => rfl | ⟨1, _⟩ => rfl | ⟨2, _⟩ => rfl)
  have er : Cert.ReferenceIdeal.Read.ridx_main_v2 i k = ix3 (⟨(i 0).val, (i 0).isLt⟩ : Fin 8) k (⟨(i 2).val, (i 2).isLt⟩ : Fin 4096) :=
    funext fun a => Fin.ext (by match a with | ⟨0, _⟩ => rfl | ⟨1, _⟩ => rfl | ⟨2, _⟩ => rfl)
  rw [el, er]

end Cert.ReferenceIdeal.RefValue

end
-- ==== Proof.lean ====
/-
  The certificate: a batched matrix product accumulated block by block against one whole product.

  Both programs compute, from `aff` (8 × 4096 × 4096) and `grid` (8 × 64 × 64 × 2), the product of the reshaped grid
  `g` (8 × 2 × 4096) with `aff`, and then the same windowed-variance chain of host operations on it. The kernel's
  program forms the product in a pallas_call over a grid of 8 batches × 4 blocks of the contraction axis, each block
  in two halves of 512 coordinates, through bf16 roundings into an f32 accumulator; the reference by one host
  `dot_general`. On the extended reals the roundings are the identity and both are the sum over k of
  g (b, r, k) · aff (b, k, n): the kernel's sum is the reference's, re-associated — addition on the extended reals
  is associative and commutative, so the precondition (finite inputs) is never opened. The shared chain is carried as
  one function (`Tail.tail`) of the product. The ideal pass rewrote nothing, so `preserves` is `True`. The three frames
  are the generated frame certificates of the two kernel programs and the reference's generated run.
-/
import proofs.«128056_j84945863180964_2_alg».proof.Defs
import proofs.«128056_j84945863180964_2_alg».proof.Proof.Gen.Kernel
import proofs.«128056_j84945863180964_2_alg».proof.Proof.Gen.Kernel.Frame
import proofs.«128056_j84945863180964_2_alg».proof.Proof.Gen.KernelIdeal
import proofs.«128056_j84945863180964_2_alg».proof.Proof.Gen.KernelIdeal.Frame
import proofs.«128056_j84945863180964_2_alg».proof.Proof.Gen.ReferenceIdeal
import proofs.«128056_j84945863180964_2_alg».proof.Proof.Gen.Pre_finite_inputs
import proofs.«128056_j84945863180964_2_alg».proof.Proof.Gen.ReferenceIdeal.Run
import proofs.«128056_j84945863180964_2_alg».proof.Proof.Gen.ReferenceIdeal.Read
import proofs.«128056_j84945863180964_2_alg».proof.Proof.Result
import proofs.«128056_j84945863180964_2_alg».proof.Proof.RefValue
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- The left factors the kernel's region finds are the reference's first two operations applied to `grid`. -/
theorem g_eq (m : (ℓ : Loc Cert.KernelIdeal.nD Cert.KernelIdeal.τ Cert.KernelIdeal.sig) → Buf (Elt Ideal) ℓ)
    (c : Dev Cert.KernelIdeal.nD) :
    Cert.KernelIdeal.Product.gArr m c
      = Cert.ReferenceIdeal.Read.val_main_v1 (F := Ideal)
          (m ((c.tc : Thread Cert.KernelIdeal.nD Cert.KernelIdeal.τ).loc Cert.KernelIdeal.main_arg1)) :=
  Cert.KernelIdeal.Result.gArr_eq m c

/-- At the extended reals the kernel's program ends at the shared tail of the block-accumulated product and the
    reference at the shared tail of the host's product, of arguments that agree: one value. -/
theorem algebraic : Cert.algebraic_KernelIdeal_ReferenceIdeal := by
  intro m ρ m' ρ' _ hagree
  refine ⟨fun c => Cert.KernelIdeal.Result.result m c, Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.RefValue.res_eq_tail, (hagree c).1, (hagree c).2, Cert.ReferenceIdeal.RefValue.dot_eq_prod]
  exact congrArg (Cert.KernelIdeal.Tail.tail (F := Ideal))
    (congrArg₂ Cert.KernelIdeal.Product.prod (g_eq m c).symm (Cert.KernelIdeal.Result.aArr_eq m c).symm)

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
